-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x64 : Shape := ⟨3, ![256, 512, 64]⟩
abbrev S64x64 : Shape := ⟨2, ![64, 64]⟩
abbrev S64 : Shape := ⟨1, ![64]⟩
abbrev S_ : Shape := ⟨0, ![]⟩

class Facts : Prop where
  bcast_S_S256x512x64 : S_.BroadcastsInDim S256x512x64 (![] : Fin 0 → Fin S256x512x64.rank)
  reducesTo_S256x512x64_S_d0_1_2 : S256x512x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S64x64 .f32) (main_arg10 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S64x64 .f32) (main_arg5 : FVec F S64x64 .f32) (main_arg6 : FVec F S64x64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x512x64 .f32) (main_arg1 : FVec F S64x64 .f32) (main_arg2 : FVec F S64x64 .f32) (main_arg3 : FVec F S64x64 .f32) (main_arg4 : FVec F S64x64 .f32) (main_arg5 : FVec F S64x64 .f32) (main_arg6 : FVec F S64x64 .f32) (main_arg7 : FVec F S64x64 .f32) (main_arg8 : FVec F S64 .f32) (main_arg9 : FVec F S64x64 .f32) (main_arg10 : FVec F S64 .f32) : IVec S_ 1 :=
  let main_v0 : FVec F S256x512x64 .f32 := Host.absf main_arg0
  let main_cst : FVec F S_ .f32 := constant S_ .f32 0x7F800000#32
  let main_v1 : FVec F S256x512x64 .f32 := broadcastInDim S256x512x64 ![] bcast_S_S256x512x64 main_cst
  let main_v2 : IVec S256x512x64 1 := cmpf .olt main_v0 main_v1
  let main_c : IVec S_ 1 := constantI S_ 1 1#1
  let main_v3 : IVec S_ 1 := (fun x v => Host.reduce IntOp.andi x v reducesTo_S256x512x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S256x512x64 : Shape := ⟨3, ![256, 512, 64]⟩
abbrev S64x64 : Shape := ⟨2, ![64, 64]⟩
abbrev S64 : Shape := ⟨1, ![64]⟩
abbrev S8x512x64 : Shape := ⟨3, ![8, 512, 64]⟩
abbrev S4096x64 : Shape := ⟨2, ![4096, 64]⟩
abbrev S8x512x512 : Shape := ⟨3, ![8, 512, 512]⟩
abbrev S8x512 : Shape := ⟨2, ![8, 512]⟩
abbrev S8x512x1 : Shape := ⟨3, ![8, 512, 1]⟩
abbrev S1x1x64 : Shape := ⟨3, ![1, 1, 64]⟩

abbrev nBuf : Space → Nat
  | .hbm => 12
  | .vmem => 14
  | .smem => 0
  | _ => 0

abbrev bufTy : (tb : Table) → Fin (tcTables nBuf tb) → BufTy
  | .hbm, ⟨0, _⟩ => ⟨S256x512x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S256x512x64, .f32⟩
  | .local _ .vmem, ⟨0, _⟩ => ⟨S8x512x64, .f32⟩
  | .local _ .vmem, ⟨1, _⟩ => ⟨S8x512x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S8x512x64, .f32⟩
  | .local _ .vmem, ⟨13, _⟩ => ⟨S8x512x64, .f32⟩
  | _, _ => ⟨S256x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S8x512x64_S8x512x64_0_0_0 : ∀ a, (![0, 0, 0] : Fin 3 → Nat) a + S8x512x64.size a ≤ S8x512x64.size a
  h_S8x512x64 : 0 < S8x512x64.numel
  bitsLt_bf16_f32 : FTy.bits .bf16 < FTy.bits .f32
  shapeCasts_S8x512x64_S4096x64 : S8x512x64.ShapeCasts S4096x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S4096x64_S8x512x64 : S4096x64.ShapeCasts S8x512x64
  reduces_S8x512x512_S8x512 : S8x512x512.Reduces [2] S8x512
  shapeCasts_S8x512_S8x512x1 : S8x512.ShapeCasts S8x512x1
  broadcasts_S8x512x1_S8x512x512 : S8x512x1.Broadcasts S8x512x512
  shapeCasts_S64_S1x1x64 : S64.ShapeCasts S1x1x64
  broadcasts_S1x1x64_S8x512x64 : S1x1x64.Broadcasts S8x512x64
  dot_S4096x64_S64x64_S4096x64_1_0_0_1_n_n_wf : DotDims.WF S4096x64 S64x64 S4096x64 [1] [0] [0] [1] [] []
  dot_S8x512x64_S8x512x64_S8x512x512_2_2_1_1_0_0_wf : DotDims.WF S8x512x64 S8x512x64 S8x512x512 [2] [2] [1] [1] [0] [0]
  dot_S8x512x512_S8x512x64_S8x512x64_2_1_1_2_0_0_wf : DotDims.WF S8x512x512 S8x512x64 S8x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x64.size a ≤ S256x512x64.size a
  hwx0_0 : ∀ i : grid0.Coords, EltTy.bits .f32 = 32 ∨ (Rect.block (s := S256x512x64) S8x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x512x64.size a ≤ S256x512x64.size a
  hwx0_11 : ∀ i : grid0.Coords, EltTy.bits .f32 = 32 ∨ (Rect.block (s := S256x512x64) S8x512x64.size (cc0_transform_11 i) (hinb0_11 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S8x512x64_S8x512x64_S8x512x512_2_2_1_1_0_0 : DotDims S8x512x64 S8x512x64 S8x512x512 where
  lhsContracting := [2]
  rhsContracting := [2]
  lhsNonContracting := [1]
  rhsNonContracting := [1]
  lhsBatch := [0]
  rhsBatch := [0]
  wf := dot_S8x512x64_S8x512x64_S8x512x512_2_2_1_1_0_0_wf
def dot_S8x512x512_S8x512x64_S8x512x64_2_1_1_2_0_0 : DotDims S8x512x512 S8x512x64 S8x512x64 where
  lhsContracting := [2]
  rhsContracting := [1]
  lhsNonContracting := [1]
  rhsNonContracting := [2]
  lhsBatch := [0]
  rhsBatch := [0]
  wf := dot_S8x512x512_S8x512x64_S8x512x64_2_1_1_2_0_0_wf

abbrev win0_0 : Pipeline.Window sig grid0 :=
  Pipeline.Window.ofSpec (Memref.whole main_arg0) S8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S8x512x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256x512x64 : Shape := ⟨3, ![256, 512, 64]⟩
abbrev S64x64 : Shape := ⟨2, ![64, 64]⟩
abbrev S64 : Shape := ⟨1, ![64]⟩
abbrev S_ : Shape := ⟨0, ![]⟩
abbrev S256x512x512 : Shape := ⟨3, ![256, 512, 512]⟩
abbrev S256x512 : Shape := ⟨2, ![256, 512]⟩
abbrev S256x512x1 : Shape := ⟨3, ![256, 512, 1]⟩
abbrev S1x1x64 : Shape := ⟨3, ![1, 1, 64]⟩

abbrev nBuf : Space → Nat
  | .hbm => 79
  | .vmem => 0
  | .smem => 0
  | _ => 0

abbrev bufTy : (tb : Table) → Fin (tcTables nBuf tb) → BufTy
  | .hbm, ⟨0, _⟩ => ⟨S256x512x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S256x512x64, .f32⟩
  | .hbm, ⟨12, _⟩ => ⟨S256x512x64, .f32⟩
  | .hbm, ⟨13, _⟩ => ⟨S256x512x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256x512x512, .f32⟩
  | .hbm, ⟨19, _⟩ => ⟨S256x512x512, .f32⟩
  | .hbm, ⟨20, _⟩ => ⟨S256x512x512, .f32⟩
  | .hbm, ⟨21, _⟩ => ⟨S_, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S256x512x1, .f32⟩
  | .hbm, ⟨27, _⟩ => ⟨S256x512x512, .f32⟩
  | .hbm, ⟨28, _⟩ => ⟨S256x512x512, .f32⟩
  | .hbm, ⟨29, _⟩ => ⟨S256x512x512, .f32⟩
  | .hbm, ⟨30, _⟩ => ⟨S_, .f32⟩
  | .hbm, ⟨31, _⟩ => ⟨S256x512, .f32⟩
  | .hbm, ⟨32, _⟩ => ⟨S256x512x1, .f32⟩
  | .hbm, ⟨33, _⟩ => ⟨S256x512x512, .f32⟩
  | .hbm, ⟨34, _⟩ => ⟨S256x512x512, .f32⟩
  | .hbm, ⟨35, _⟩ => ⟨S256x512x64, .f32⟩
  | .hbm, ⟨36, _⟩ => ⟨S256x512x64, .f32⟩
  | .hbm, ⟨37, _⟩ => ⟨S1x1x64, .f32⟩
  | .hbm, ⟨38, _⟩ => ⟨S256x512x64, .f32⟩
  | .hbm, ⟨39, _⟩ => ⟨S256x512x64, .f32⟩
  | .hbm, ⟨40, _⟩ => ⟨S256x512x64, .f32⟩
  | .hbm, ⟨41, _⟩ => ⟨S256x512x64, .f32⟩
  | .hbm, ⟨42, _⟩ => ⟨S256x512x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S256x512x512, .f32⟩
  | .hbm, ⟨48, _⟩ => ⟨S256x512x512, .f32⟩
  | .hbm, ⟨49, _⟩ => ⟨S256x512x512, .f32⟩
  | .hbm, ⟨50, _⟩ => ⟨S_, .f32⟩
  | .hbm, ⟨51, _⟩ => ⟨S256x512, .f32⟩
  | .hbm, ⟨52, _⟩ => ⟨S_, .f32⟩
  | .hbm, ⟨53, _⟩ => ⟨S256x512, .f32⟩
  | .hbm, ⟨54, _⟩ => ⟨S256x512, .f32⟩
  | .hbm, ⟨55, _⟩ => ⟨S256x512x1, .f32⟩
  | .hbm, ⟨56, _⟩ => ⟨S256x512x512, .f32⟩
  | .hbm, ⟨57, _⟩ => ⟨S256x512x512, .f32⟩
  | .hbm, ⟨58, _⟩ => ⟨S256x512x512, .f32⟩
  | .hbm, ⟨59, _⟩ => ⟨S_, .f32⟩
  | .hbm, ⟨60, _⟩ => ⟨S256x512, .f32⟩
  | .hbm, ⟨61, _⟩ => ⟨S256x512x1, .f32⟩
  | .hbm, ⟨62, _⟩ => ⟨S256x512x512, .f32⟩
  | .hbm, ⟨63, _⟩ => ⟨S256x512x512, .f32⟩
  | .hbm, ⟨64, _⟩ => ⟨S256x512x64, .f32⟩
  | .hbm, ⟨65, _⟩ => ⟨S256x512x64, .f32⟩
  | .hbm, ⟨66, _⟩ => ⟨S1x1x64, .f32⟩
  | .hbm, ⟨67, _⟩ => ⟨S256x512x64, .f32⟩
  | .hbm, ⟨68, _⟩ => ⟨S256x512x64, .f32⟩
  | .hbm, ⟨69, _⟩ => ⟨S256x512x64, .f32⟩
  | .hbm, ⟨70, _⟩ => ⟨S256x512x64, .f32⟩
  | .hbm, ⟨71, _⟩ => ⟨S256x512x64, .f32⟩
  | .hbm, ⟨72, _⟩ => ⟨S_, .f32⟩
  | .hbm, ⟨73, _⟩ => ⟨S256x512x64, .f32⟩
  | .hbm, ⟨74, _⟩ => ⟨S256x512x64, .f32⟩
  | .hbm, ⟨75, _⟩ => ⟨S_, .f32⟩
  | .hbm, ⟨76, _⟩ => ⟨S256x512x64, .f32⟩
  | .hbm, ⟨77, _⟩ => ⟨S256x512x64, .f32⟩
  | .hbm, ⟨78, _⟩ => ⟨S256x512x64, .f32⟩
  | _, _ => ⟨S256x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S_S256x512x512 : S_.BroadcastsInDim S256x512x512 (![] : Fin 0 → Fin S256x512x512.rank)
  reducesTo_S256x512x512_S256x512_d2 : S256x512x512.ReducesTo [2] S256x512
  h_S_ : 0 < S_.numel
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x512_0_1_2 : S256x512x1.BroadcastsInDim S256x512x512 (![0, 1, 2] : Fin 3 → Fin S256x512x512.rank)
  bcast_S64_S1x1x64_2 : S64.BroadcastsInDim S1x1x64 (![2] : Fin 1 → Fin S1x1x64.rank)
  bcast_S1x1x64_S256x512x64_0_1_2 : S1x1x64.BroadcastsInDim S256x512x64 (![0, 1, 2] : Fin 3 → Fin S256x512x64.rank)
  bcast_S_S256x512x64 : S_.BroadcastsInDim S256x512x64 (![] : Fin 0 → Fin S256x512x64.rank)
  dot_S256x512x64_S64x64_S256x512x64_2_0_01_1_n_n_wf : DotDims.WF S256x512x64 S64x64 S256x512x64 [2] [0] [0, 1] [1] [] []
  dot_S256x512x64_S256x512x64_S256x512x512_2_2_1_1_0_0_wf : DotDims.WF S256x512x64 S256x512x64 S256x512x512 [2] [2] [1] [1] [0] [0]
  dot_S256x512x512_S256x512x64_S256x512x64_2_1_1_2_0_0_wf : DotDims.WF S256x512x512 S256x512x64 S256x512x64 [2] [1] [1] [2] [0] [0]

variable [Facts₀]

def dot_S256x512x64_S64x64_S256x512x64_2_0_01_1_n_n : DotDims S256x512x64 S64x64 S256x512x64 where
  lhsContracting := [2]
  rhsContracting := [0]
  lhsNonContracting := [0, 1]
  rhsNonContracting := [1]
  lhsBatch := []
  rhsBatch := []
  wf := dot_S256x512x64_S64x64_S256x512x64_2_0_01_1_n_n_wf
def dot_S256x512x64_S256x512x64_S256x512x512_2_2_1_1_0_0 : DotDims S256x512x64 S256x512x64 S256x512x512 where
  lhsContracting := [2]
  rhsContracting := [2]
  lhsNonContracting := [1]
  rhsNonContracting := [1]
  lhsBatch := [0]
  rhsBatch := [0]
  wf := dot_S256x512x64_S256x512x64_S256x512x512_2_2_1_1_0_0_wf
def dot_S256x512x512_S256x512x64_S256x512x64_2_1_1_2_0_0 : DotDims S256x512x512 S256x512x64 S256x512x64 where
  lhsContracting := [2]
  rhsContracting := [1]
  lhsNonContracting := [1]
  rhsNonContracting := [2]
  lhsBatch := [0]
  rhsBatch := [0]
  wf := dot_S256x512x512_S256x512x64_S256x512x64_2_1_1_2_0_0_wf

class Facts : Prop extends Facts₀ where

variable [Facts]
-- ==== Proof.SelfAttn.lean ====
/-
  Single-head self-attention over one sequence, as plain functions on the extended reals, and the one algebraic law
  that joins the two programs.

  For a sequence `X` (positions × channels) and square weight matrices, a branch computes queries, keys and values
  `X·Wq`, `X·Wk`, `X·Wv`; scores `S n m`; row-wise softmax weights `exp (S n m − max_m S n m) / Σ_m' exp (…)`; the
  weighted mix of the values; and a dense layer `· Wd + bd`. The gated output is `x · σ(t + s)` of two branches.

  The two programs differ in where the scale `c` enters the scores: one scales the queries first,
  `Σ_d (Q n d · c) · K m d`, the other scales the finished product, `(Σ_d Q n d · K m d) · c`. On the extended reals a
  product by a nonnegative finite `c` distributes over a sum (whatever infinities the terms hold), so the two score
  matrices are equal, and with them everything downstream.
-/
import Idealize.ShloMosaic.PureOps.Ideal

noncomputable section

open scoped BigOperators

namespace Cert.SelfAttn

open Idealize.ShloMosaic

variable {ι κ : Type} [Fintype ι] [Fintype κ]

/-- A sequence times a weight matrix: entry `(n, d)` is `Σ_k X n k · W k d`. -/
def proj (X : ι → κ → EReal) (W : κ → κ → EReal) : ι → κ → EReal := fun n d => ∑ k, X n k * W k d

/-- Scores with the queries scaled first: `Σ_d (Q n d · c) · K m d`. -/
def scoresPre (c : EReal) (Q K : ι → κ → EReal) : ι → ι → EReal := fun n m => ∑ d, (Q n d * c) * K m d

/-- Scores with the product scaled afterwards: `(Σ_d Q n d · K m d) · c`. -/
def scoresPost (c : EReal) (Q K : ι → κ → EReal) : ι → ι → EReal := fun n m => (∑ d, Q n d * K m d) * c

/-- The maximum of row `n` of the scores, taken from the lower bound `lo` (and once more against it). -/
def rowMax (lo : EReal) (S : ι → ι → EReal) (n : ι) : EReal :=
  max lo ((Finset.univ : Finset ι).fold max lo (fun m => S n m))

/-- The softmax weights of row `n`: `exp (S n m − rowMax) / Σ_m' exp (S n m' − rowMax)`. -/
def soft (lo : EReal) (S : ι → ι → EReal) : ι → ι → EReal := fun n m =>
  Ideal.div (Ideal.exp (S n m - rowMax lo S n)) (∑ m', Ideal.exp (S n m' - rowMax lo S n))

/-- The weights applied to the values: entry `(n, d)` is `Σ_m A n m · V m d`. -/
def mix (A : ι → ι → EReal) (V : ι → κ → EReal) : ι → κ → EReal := fun n d => ∑ m, A n m * V m d

/-- A dense layer: entry `(n, e)` is `Σ_d A n d · W d e + b e`. -/
def dense (A : ι → κ → EReal) (W : κ → κ → EReal) (b : κ → EReal) : ι → κ → EReal := fun n e => (∑ d, A n d * W d e) + b e

/-- One attention branch from its scores: softmax, mix with the values, dense layer. -/
def branch (lo : EReal) (S : ι → ι → EReal) (V : ι → κ → EReal) (W : κ → κ → EReal) (b : κ → EReal) : ι → κ → EReal :=
  dense (mix (soft lo S) V) W b

/-- The gated output: `x · σ(t + s)` with `σ z = 1 / (1 + exp (−z))`. -/
def gate (x t s : EReal) : EReal := x * Ideal.logistic (t + s)

/-- A product by a nonnegative finite factor distributes over a finite sum of extended reals. -/
theorem sum_mul_of_nonneg {c : EReal} (h0 : 0 ≤ c) (ht : c ≠ ⊤) (s : Finset κ) (f : κ → EReal) :
    (∑ d ∈ s, f d) * c = ∑ d ∈ s, f d * c := by
  classical
  induction s using Finset.induction_on with
  | empty => simp
  | insert a s ha ih =>
    rw [Finset.sum_insert ha, Finset.sum_insert ha, EReal.right_distrib_of_nonneg_of_ne_top h0 ht, ih]

/-- Scaling the queries first or the finished product afterwards gives the same scores. -/
theorem scoresPost_eq_scoresPre {c : EReal} (h0 : 0 ≤ c) (ht : c ≠ ⊤) (Q K : ι → κ → EReal) :
    scoresPost c Q K = scoresPre c Q K := by
  funext n m
  unfold scoresPost scoresPre
  rw [sum_mul_of_nonneg h0 ht]
  exact Finset.sum_congr rfl fun d _ => mul_right_comm _ _ _

/-- A whole branch with the queries scaled first. -/
def attnPre (c lo : EReal) (X : ι → κ → EReal) (Wq Wk Wv Wd : κ → κ → EReal) (bd : κ → EReal) : ι → κ → EReal :=
  branch lo (scoresPre c (proj X Wq) (proj X Wk)) (proj X Wv) Wd bd

/-- A whole branch with the score product scaled afterwards. -/
def attnPost (c lo : EReal) (X : ι → κ → EReal) (Wq Wk Wv Wd : κ → κ → EReal) (bd : κ → EReal) : ι → κ → EReal :=
  branch lo (scoresPost c (proj X Wq) (proj X Wk)) (proj X Wv) Wd bd

/-- The two branches are one function when the scale is nonnegative and finite. -/
theorem attnPost_eq_attnPre {c : EReal} (h0 : 0 ≤ c) (ht : c ≠ ⊤) (lo : EReal) (X : ι → κ → EReal)
    (Wq Wk Wv Wd : κ → κ → EReal) (bd : κ → EReal) :
    attnPost c lo X Wq Wk Wv Wd bd = attnPre c lo X Wq Wk Wv Wd bd := by
  unfold attnPost attnPre
  rw [scoresPost_eq_scoresPre h0 ht]

end Cert.SelfAttn

end
-- ==== Proof.Views.lean ====
/-
  The arrays of the two programs seen as the plain functions the attention formulas are written over, and the result
  both programs compute as ONE function of the argument arrays.

  A rank-3 array `[a, 512, 64]` holds `a` sequences; sequence `b` is the function `(n, k) ↦ x (b, n, k)`. A `[64, 64]`
  array is a weight matrix, a `[64]` array a bias. The result at `(b, n, e)` depends on sequence `b` alone:
  `x (b, n, e) · σ(temporal b n e + spatial b n e)`, each branch a self-attention of sequence `b` with its own weights.
-/
import Idealize.ShloMosaic.Lib.ValueIdx
import proofs.«142567_j73504070303828_1_alg».proof.Proof.SelfAttn

noncomputable section

namespace Cert.Views

open Idealize.ShloMosaic Idealize.ShloMosaic.ValueIdx Cert.SelfAttn

/-- The scale of the scores, one eighth, as the kernel's literal spells it. -/
abbrev c8 : EReal := Ideal.ofBits .f32 0x3E000000#32

/-- The lower bound the row maxima start from, the word of minus infinity. -/
abbrev lo : EReal := Ideal.ofBits .f32 0xFF800000#32

/-- Sequence `b` of a stack of sequences. -/
def slab {a : ℕ} (x : (⟨3, ![a, 512, 64]⟩ : Shape).Idx → EReal) (b : Fin a) : Fin 512 → Fin 64 → EReal :=
  fun n k => x (ix3 b n k)

/-- A `[64, 64]` array as a matrix. -/
def mat (w : (⟨2, ![64, 64]⟩ : Shape).Idx → EReal) : Fin 64 → Fin 64 → EReal := fun k d => w (ix2 k d)

/-- A `[64]` array as a vector. -/
def vec (v : (⟨1, ![64]⟩ : Shape).Idx → EReal) : Fin 64 → EReal := fun e => v (ix1 e)

/-- The gated two-branch attention of a stack of sequences, entry by entry. -/
def gated {a : ℕ} (x : (⟨3, ![a, 512, 64]⟩ : Shape).Idx → EReal)
    (wq1 wk1 wv1 wq2 wk2 wv2 wd1 : (⟨2, ![64, 64]⟩ : Shape).Idx → EReal) (bd1 : (⟨1, ![64]⟩ : Shape).Idx → EReal)
    (wd2 : (⟨2, ![64, 64]⟩ : Shape).Idx → EReal) (bd2 : (⟨1, ![64]⟩ : Shape).Idx → EReal) :
    (⟨3, ![a, 512, 64]⟩ : Shape).Idx → EReal := fun i =>
  gate (x i)
    (attnPre c8 lo (slab x (i 0)) (mat wq1) (mat wk1) (mat wv1) (mat wd1) (vec bd1) (i 1) (i 2))
    (attnPre c8 lo (slab x (i 0)) (mat wq2) (mat wk2) (mat wv2) (mat wd2) (vec bd2) (i 1) (i 2))

/-- The gated attention at an entry depends on the entry's sequence alone: two stacks that hold the same sequence at
    `b` and at `B` give the same value there. -/
theorem gated_block {a a' : ℕ} (x : (⟨3, ![a, 512, 64]⟩ : Shape).Idx → EReal) (X : (⟨3, ![a', 512, 64]⟩ : Shape).Idx → EReal)
    (wq1 wk1 wv1 wq2 wk2 wv2 wd1 : (⟨2, ![64, 64]⟩ : Shape).Idx → EReal) (bd1 : (⟨1, ![64]⟩ : Shape).Idx → EReal)
    (wd2 : (⟨2, ![64, 64]⟩ : Shape).Idx → EReal) (bd2 : (⟨1, ![64]⟩ : Shape).Idx → EReal)
    (b : Fin a) (B : Fin a') (h : slab x b = slab X B) (n : Fin 512) (e : Fin 64) :
    gated x wq1 wk1 wv1 wq2 wk2 wv2 wd1 bd1 wd2 bd2 (ix3 b n e) = gated X wq1 wk1 wv1 wq2 wk2 wv2 wd1 bd1 wd2 bd2 (ix3 B n e) := by
  have hx : x (ix3 b n e) = X (ix3 B n e) := congrFun (congrFun h n) e
  show gate (x (ix3 b n e)) (attnPre c8 lo (slab x b) (mat wq1) (mat wk1) (mat wv1) (mat wd1) (vec bd1) n e)
      (attnPre c8 lo (slab x b) (mat wq2) (mat wk2) (mat wv2) (mat wd2) (vec bd2) n e)
    = gate (X (ix3 B n e)) (attnPre c8 lo (slab X B) (mat wq1) (mat wk1) (mat wv1) (mat wd1) (vec bd1) n e)
      (attnPre c8 lo (slab X B) (mat wq2) (mat wk2) (mat wv2) (mat wd2) (vec bd2) n e)
  rw [hx, h]

end Cert.Views

end
-- ==== Proof.LibRank3.lean ====
/-
  Rank-3 arrays read by coordinates, at the exact-real instance: the keepdims forms of a rank-3 array
  ([a,b] → [a,b,1] cast, [a,b,1] → [a,b,c] broadcast), the sum and the maximum of a rank-3 array along its last
  or its middle axis read at `ix2`, the [a] → [a,1] column of maxima, and the batched product
  `out[g, p, q] = Σ_k l[g, p, k] · r[g, q, k]` (both operands contracted on their last axis, the first axis a
  batch axis) read at `ix3 g p q` as a sum over `k`.
-/
import Idealize.ShloMosaic.PureOps.Ideal.Laws
import Idealize.ShloMosaic.Lib.ValueIdx
import Idealize.ShloMosaic.Lib.Pipeline.Value

noncomputable section

open scoped BigOperators

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum of an `[a, b, c]` array along its last axis, accumulated from the zero word: at `(i, j)` the sum over `k`. -/
theorem multiReduction_add_axis2_of3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-- The sum of an `[a, b, c]` array along its middle axis: at `(i, k)` the sum over `j`. -/
theorem multiReduction_add_axis1_of3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src ?_
  funext d
  match d with
  | ⟨0, _⟩ => exact Fin.ext rfl
  | ⟨1, _⟩ => exact Fin.ext rfl
  | ⟨2, _⟩ => exact Fin.ext rfl

/-- The maximum of an `[a, b, c]` array along its last axis: at `(i, j)` the fold of `max` over `k` from the accumulator's value. -/
theorem multiReduction_maximumf_axis2_of3_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (fun f => Finset.fold max (Ideal.ofBits .f32 acc) f (Finset.univ : Finset (Fin c))) (funext fun k => congrArg src ?_)
  funext d
  match d with
  | ⟨0, _⟩ => exact Fin.ext rfl
  | ⟨1, _⟩ => exact Fin.ext rfl
  | ⟨2, _⟩ => exact Fin.ext rfl

/-! ### The same reductions with the accumulator word's equation typed as a printed program carries it (`w = w`), so
    that they rewrite a printed term directly. -/

theorem sum_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_axis2_of3_apply src h hφ hacc i j

theorem sum_axis1_of3 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  multiReduction_add_axis1_of3_apply src h hφ hacc i k

theorem max_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun k => src (ix3 i j k)) :=
  multiReduction_maximumf_axis2_of3_apply src 0xFF800000#32 h hφ hacc i j

/-- The sum of an `[a, b]` array along its last axis: at `i` the sum of row `i`. -/
theorem sum_axis1_of2 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext d
  match d with
  | ⟨0, _⟩ => exact Fin.ext rfl
  | ⟨1, _⟩ => exact Fin.ext rfl

/-- The maximum of an `[a, b]` array along its last axis: at `i` the fold of `max` over row `i`. -/
theorem max_axis1_of2 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  refine congrArg (fun f => Finset.fold max (Ideal.ofBits .f32 0xFF800000#32) f (Finset.univ : Finset (Fin b))) (funext fun k => congrArg src ?_)
  funext d
  match d with
  | ⟨0, _⟩ => exact Fin.ext rfl
  | ⟨1, _⟩ => exact Fin.ext rfl

/-- An `[a]` array cast to the column `[a, 1]` reads, at `(i, u)`, the operand at `i`. -/
theorem col_of_vec {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

namespace Idealize.ShloMosaic.BatchRhsTDot

open Idealize.ShloMosaic Idealize.ShloMosaic.ValueIdx

variable {B M K N : Nat}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The left operand is read on its batch axis at the entry's first coordinate. -/
theorem lhs_batch (D : DotDims ⟨3, ![B, M, K]⟩ ⟨3, ![B, N, K]⟩ ⟨3, ![B, M, N]⟩) (hlb : D.lhsBatch = [0])
    (j : (⟨3, ![B, M, N]⟩ : Shape).Idx) (s : D.contr.Idx) : (D.lhsIdx j s (0 : Fin 3)).val = (j (0 : Fin 3)).val := by
  unfold DotDims.lhsIdx
  rw [dif_pos (show (0 : Fin 3) ∈ D.lhsBatch by rw [hlb]; exact List.mem_singleton.mpr rfl)]
  simp only [Fin.val_cast]
  exact val_congr j _ _ _ _ (by simp [hlb])

/-- The left operand is read on its row axis at the entry's second coordinate. -/
theorem lhs_row (D : DotDims ⟨3, ![B, M, K]⟩ ⟨3, ![B, N, K]⟩ ⟨3, ![B, M, N]⟩) (hlb : D.lhsBatch = [0]) (hln : D.lhsNonContracting = [1])
    (j : (⟨3, ![B, M, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; simp),
    dif_pos (show (1 : Fin 3) ∈ D.lhsNonContracting by rw [hln]; exact List.mem_singleton.mpr rfl)]
  simp only [Fin.val_cast]
  exact val_congr j _ _ _ _ (by simp [hlb, hln])

/-- The right operand is read on its batch axis at the entry's first coordinate. -/
theorem rhs_batch (D : DotDims ⟨3, ![B, M, K]⟩ ⟨3, ![B, N, K]⟩ ⟨3, ![B, M, N]⟩) (hrb : D.rhsBatch = [0])
    (j : (⟨3, ![B, M, N]⟩ : Shape).Idx) (s : D.contr.Idx) : (D.rhsIdx j s (0 : Fin 3)).val = (j (0 : Fin 3)).val := by
  unfold DotDims.rhsIdx
  rw [dif_pos (show (0 : Fin 3) ∈ D.rhsBatch by rw [hrb]; exact List.mem_singleton.mpr rfl)]
  simp only [Fin.val_cast]
  exact val_congr j _ _ _ _ (by simp [hrb])

/-- The right operand is read on its row axis at the entry's third coordinate. -/
theorem rhs_row (D : DotDims ⟨3, ![B, M, K]⟩ ⟨3, ![B, N, K]⟩ ⟨3, ![B, M, N]⟩) (hlb : D.lhsBatch = [0]) (hln : D.lhsNonContracting = [1])
    (hrb : D.rhsBatch = [0]) (hrn : D.rhsNonContracting = [1])
    (j : (⟨3, ![B, M, N]⟩ : Shape).Idx) (s : D.contr.Idx) : (D.rhsIdx j s (1 : Fin 3)).val = (j (2 : Fin 3)).val := by
  unfold DotDims.rhsIdx
  rw [dif_neg (show ¬(1 : Fin 3) ∈ D.rhsBatch by rw [hrb]; simp),
    dif_pos (show (1 : Fin 3) ∈ D.rhsNonContracting by rw [hrn]; exact List.mem_singleton.mpr rfl)]
  simp only [Fin.val_cast]
  exact val_congr j _ _ _ _ (by simp [hlb, hln, hrn])

/-- The contraction of a batched product whose operands are both contracted on their last axis, re-indexed by the one
    contracted coordinate: stated for any dimension record with these axis lists. -/
theorem sum_eq (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (l : (⟨3, ![B, M, K]⟩ : Shape).Idx → EReal) (r : (⟨3, ![B, N, K]⟩ : Shape).Idx → EReal) (g : Fin B) (p : Fin M) (q : Fin N) :
    ∑ s : D.contr.Idx, l (D.lhsIdx (ix3 g p q) s) * r (D.rhsIdx (ix3 g p q) s) = ∑ k : Fin K, l (ix3 g p k) * r (ix3 g q k) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k :=
    funext fun a => Fin.ext (by
      match a with
      | ⟨0, _⟩ => exact lhs_batch D hlb _ _
      | ⟨1, _⟩ => exact lhs_row D hlb hln _ _
      | ⟨2, _⟩ => exact (D.lhsIdx_val_of_single hlc _ _).trans hk)
  have er : D.rhsIdx (ix3 g p q) ((contrEquiv1 D K hr hs).symm k) = ix3 g q k :=
    funext fun a => Fin.ext (by
      match a with
      | ⟨0, _⟩ => exact rhs_batch D hrb _ _
      | ⟨1, _⟩ => exact rhs_row D hlb hln hrb hrn _ _
      | ⟨2, _⟩ => exact (D.rhsIdx_val_of_single hrc _ _).trans hk)
  exact congrArg₂ (fun x y => l x * r y) el er

/-- A `tpu.matmul` of such a product into the zero accumulator, at an entry given by its coordinates. -/
theorem matmul_zero_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (l : FVec Ideal ⟨3, ![B, M, K]⟩ φ₁) (r : FVec Ideal ⟨3, ![B, N, K]⟩ φ₂)
    (g : Fin B) (p : Fin M) (q : Fin N) :
    matmul D prec l r (constant (F := Ideal) ⟨3, ![B, M, N]⟩ .f32 0x00000000#32) (ix3 g p q)
      = ∑ k : Fin K, l (ix3 g p k) * r (ix3 g q k) := by
  simp only [matmul]
  rw [Ideal.matmul_constant_zero_apply]
  exact sum_eq D hlc hrc hln hrn hlb hrb l r g p q

/-- The host's `dot_general` of such a product, at an entry given by its coordinates. -/
theorem dotGeneral_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (sched : HostSchedule) (l : FVec Ideal ⟨3, ![B, M, K]⟩ φ₁) (r : FVec Ideal ⟨3, ![B, N, K]⟩ φ₂)
    (g : Fin B) (p : Fin M) (q : Fin N) :
    FloatOps.dotGeneral D prec sched l r (ix3 g p q) = ∑ k : Fin K, l (ix3 g p k) * r (ix3 g q k) := by
  rw [Ideal.dotGeneral_apply]
  exact sum_eq D hlc hrc hln hrn hlb hrb l r g p q

end Idealize.ShloMosaic.BatchRhsTDot

end
-- ==== Proof.LibMergeLead.lean ====
/-
  Rank-3 arrays whose two leading axes are merged into one, read by coordinates.

  A row-major [a, b, c] array and the [a·b, c] matrix with the same elements in the same order: row p·b + q of the
  matrix is row (p, q) of the array. Both directions of the recast are read at an entry here (`merge_apply`,
  `split_apply`), for any extents; the merged extent is a separate number `n` with the equation `r = p·b + q` between
  the row numbers asked of the caller, so that a literal extent (2048 for 32·64) matches as written.

  Also a [b, c] matrix given a leading unit axis and repeated along it a times: entry (p, q, k) of the result is
  entry (q, k) of the matrix (`addLead_apply`, `repeatLead_apply`).
-/
import Idealize.ShloMosaic.Lib.Pipeline.Value
import Idealize.ShloMosaic.Lib.ValueIdx

noncomputable section

namespace Idealize.ShloMosaic.MergeLead

open Idealize.ShloMosaic Idealize.ShloMosaic.ValueIdx

variable {α : Type} {a b c n : Nat}

/-- The [a, b, c] array recast as an [n, c] matrix, at row r = p·b + q and column k, is the array at (p, q, k). -/
theorem merge_apply (v : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ v h (ix2 r k) = v (ix3 p q k) :=
  shapeCast_apply v h (ix2 r k) (ix3 p q k) (by
    rw [Shape.rowMajor_val_three, Shape.rowMajor_val_two]
    show (p.val * b + q.val) * c + k.val = r.val * c + k.val
    rw [hr])

/-- The [n, c] matrix recast as an [a, b, c] array, at (p, q, k), is the matrix at row r = p·b + q and column k. -/
theorem split_apply (v : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ v h (ix3 p q k) = v (ix2 r k) :=
  shapeCast_apply v h (ix3 p q k) (ix2 r k) (by
    rw [Shape.rowMajor_val_three, Shape.rowMajor_val_two]
    show r.val * c + k.val = (p.val * b + q.val) * c + k.val
    rw [hr])

/-- A [b, c] matrix given a leading unit axis: entry (0, q, k) is entry (q, k). -/
theorem addLead_apply (v : (⟨2, ![b, c]⟩ : Shape).Idx → α) (h : (⟨2, ![b, c]⟩ : Shape).ShapeCasts ⟨3, ![1, b, c]⟩)
    (z : Fin 1) (q : Fin b) (k : Fin c) :
    shapeCast ⟨3, ![1, b, c]⟩ v h (ix3 z q k) = v (ix2 q k) :=
  shapeCast_apply v h (ix3 z q k) (ix2 q k) (by
    rw [Shape.rowMajor_val_three, Shape.rowMajor_val_two]
    show q.val * c + k.val = (z.val * b + q.val) * c + k.val
    have hz : z.val = 0 := by have := z.isLt; omega
    rw [hz, Nat.zero_mul, Nat.zero_add])

/-- A [1, b, c] array repeated a times along its unit axis: entry (p, q, k) is entry (0, q, k). -/
theorem repeatLead_apply (v : (⟨3, ![1, b, c]⟩ : Shape).Idx → α) (h : (⟨3, ![1, b, c]⟩ : Shape).Broadcasts ⟨3, ![a, b, c]⟩)
    (p : Fin a) (q : Fin b) (k : Fin c) :
    broadcastTo ⟨3, ![a, b, c]⟩ v h (ix3 p q k) = v (ix3 (0 : Fin 1) q k) :=
  broadcastTo_apply v h (ix3 p q k) (ix3 (0 : Fin 1) q k) (fun d => by
    match d with
    | ⟨0, _⟩ => show 0 = if (1 : Nat) = 1 then 0 else p.val; rw [if_pos rfl]
    | ⟨1, _⟩ =>
      show q.val = if b = 1 then 0 else q.val
      split
      · have := q.isLt; omega
      · rfl
    | ⟨2, _⟩ =>
      show k.val = if c = 1 then 0 else k.val
      split
      · have := k.isLt; omega
      · rfl)

end Idealize.ShloMosaic.MergeLead

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibBatchMix.lean ====
/-
  GENERAL LEMMAS for rank-3 arrays read by coordinates, on the extended reals:
  • the batched product `out[g, p, q] = Σ_m l[g, p, m] · r[g, m, q]` (the left operand contracted on its last axis, the
    right on its middle axis, the first axis a batch axis), as a `tpu.matmul` into the zero accumulator, read at
    `ix3 g p q` as a sum over `m`;
  • the host's reduce with a maximum body along the last axis of an `[a, b, c]` array, read at `ix2 i j` as the fold of
    `max` over `k` from the initial value;
  • a vector `[c]` given two leading unit axes and repeated over them (`[c] → [1, 1, c] → [a, b, c]`), read at
    `ix3 p q k` as the vector's entry `k`.
-/
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Idealize.ShloMosaic.BatchMix

open Idealize.ShloMosaic Idealize.ShloMosaic.ValueIdx

variable {B M K N : Nat}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The left operand is read on its batch axis at the entry's first coordinate. -/
theorem lhs_batch (D : DotDims ⟨3, ![B, M, K]⟩ ⟨3, ![B, K, N]⟩ ⟨3, ![B, M, N]⟩) (hlb : D.lhsBatch = [0])
    (j : (⟨3, ![B, M, N]⟩ : Shape).Idx) (s : D.contr.Idx) : (D.lhsIdx j s (0 : Fin 3)).val = (j (0 : Fin 3)).val := by
  unfold DotDims.lhsIdx
  rw [dif_pos (show (0 : Fin 3) ∈ D.lhsBatch by rw [hlb]; exact List.mem_singleton.mpr rfl)]
  simp only [Fin.val_cast]
  exact val_congr j _ _ _ _ (by simp [hlb])

/-- The left operand is read on its row axis at the entry's second coordinate. -/
theorem lhs_row (D : DotDims ⟨3, ![B, M, K]⟩ ⟨3, ![B, K, N]⟩ ⟨3, ![B, M, N]⟩) (hlb : D.lhsBatch = [0]) (hln : D.lhsNonContracting = [1])
    (j : (⟨3, ![B, M, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; simp),
    dif_pos (show (1 : Fin 3) ∈ D.lhsNonContracting by rw [hln]; exact List.mem_singleton.mpr rfl)]
  simp only [Fin.val_cast]
  exact val_congr j _ _ _ _ (by simp [hlb, hln])

/-- The right operand is read on its batch axis at the entry's first coordinate. -/
theorem rhs_batch (D : DotDims ⟨3, ![B, M, K]⟩ ⟨3, ![B, K, N]⟩ ⟨3, ![B, M, N]⟩) (hrb : D.rhsBatch = [0])
    (j : (⟨3, ![B, M, N]⟩ : Shape).Idx) (s : D.contr.Idx) : (D.rhsIdx j s (0 : Fin 3)).val = (j (0 : Fin 3)).val := by
  unfold DotDims.rhsIdx
  rw [dif_pos (show (0 : Fin 3) ∈ D.rhsBatch by rw [hrb]; exact List.mem_singleton.mpr rfl)]
  simp only [Fin.val_cast]
  exact val_congr j _ _ _ _ (by simp [hrb])

/-- The right operand is read on its column axis at the entry's third coordinate. -/
theorem rhs_col (D : DotDims ⟨3, ![B, M, K]⟩ ⟨3, ![B, K, N]⟩ ⟨3, ![B, M, N]⟩) (hlb : D.lhsBatch = [0]) (hln : D.lhsNonContracting = [1])
    (hrb : D.rhsBatch = [0]) (hrn : D.rhsNonContracting = [2])
    (j : (⟨3, ![B, M, N]⟩ : Shape).Idx) (s : D.contr.Idx) : (D.rhsIdx j s (2 : Fin 3)).val = (j (2 : Fin 3)).val := by
  unfold DotDims.rhsIdx
  rw [dif_neg (show ¬(2 : Fin 3) ∈ D.rhsBatch by rw [hrb]; simp),
    dif_pos (show (2 : Fin 3) ∈ D.rhsNonContracting by rw [hrn]; exact List.mem_singleton.mpr rfl)]
  simp only [Fin.val_cast]
  exact val_congr j _ _ _ _ (by simp [hlb, hln, hrn])

/-- The contraction of such a batched product, re-indexed by the one contracted coordinate. -/
theorem sum_eq (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (l : (⟨3, ![B, M, K]⟩ : Shape).Idx → EReal) (r : (⟨3, ![B, K, N]⟩ : Shape).Idx → EReal) (g : Fin B) (p : Fin M) (q : Fin N) :
    ∑ s : D.contr.Idx, l (D.lhsIdx (ix3 g p q) s) * r (D.rhsIdx (ix3 g p q) s) = ∑ k : Fin K, l (ix3 g p k) * r (ix3 g k q) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k :=
    funext fun a => Fin.ext (by
      match a with
      | ⟨0, _⟩ => exact lhs_batch D hlb _ _
      | ⟨1, _⟩ => exact lhs_row D hlb hln _ _
      | ⟨2, _⟩ => exact (D.lhsIdx_val_of_single hlc _ _).trans hk)
  have er : D.rhsIdx (ix3 g p q) ((contrEquiv1 D K hr hs).symm k) = ix3 g k q :=
    funext fun a => Fin.ext (by
      match a with
      | ⟨0, _⟩ => exact rhs_batch D hrb _ _
      | ⟨1, _⟩ => exact (D.rhsIdx_val_of_single hrc _ _).trans hk
      | ⟨2, _⟩ => exact rhs_col D hlb hln hrb hrn _ _)
  exact congrArg₂ (fun x y => l x * r y) el er

/-- A `tpu.matmul` of such a product into the zero accumulator, at an entry given by its coordinates. -/
theorem matmul_zero_ix3 {φ₁ φ₂ : FTy} (D : DotDims ⟨3, ![B, M, K]⟩ ⟨3, ![B, K, N]⟩ ⟨3, ![B, M, N]⟩)
    (hlc : D.lhsContracting = [2]) (hrc : D.rhsContracting = [1]) (hln : D.lhsNonContracting = [1])
    (hrn : D.rhsNonContracting = [2]) (hlb : D.lhsBatch = [0]) (hrb : D.rhsBatch = [0])
    (prec : Option ContractPrecision) (l : FVec Ideal ⟨3, ![B, M, K]⟩ φ₁) (r : FVec Ideal ⟨3, ![B, K, N]⟩ φ₂)
    (g : Fin B) (p : Fin M) (q : Fin N) :
    matmul D prec l r (constant (F := Ideal) ⟨3, ![B, M, N]⟩ .f32 0x00000000#32) (ix3 g p q)
      = ∑ k : Fin K, l (ix3 g p k) * r (ix3 g k q) := by
  simp only [matmul]
  rw [Ideal.matmul_constant_zero_apply]
  exact sum_eq D hlc hrc hln hrn hlb hrb l r g p q

end Idealize.ShloMosaic.BatchMix

namespace Idealize.ShloMosaic.ValueIdx

open Idealize.ShloMosaic

variable {α : Type}

/-- The host's maximum along the last axis of an `[a, b, c]` array of extended reals: at `(i, j)` it is the fold of
    `max`, from the initial value, over the entries `(i, j, k)`. -/
theorem hostReduce_maximumf_axis2_of3_apply {a b c : ℕ} (x : FVec Ideal ⟨3, ![a, b, c]⟩ .f32) (init : (⟨0, ![]⟩ : Shape).Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x _ h' h hu]
  refine congrArg (fun f => Finset.fold max (init (Shape.Idx.first hu)) f (Finset.univ : Finset (Fin c))) (funext fun k => congrArg x ?_)
  funext d
  match d with
  | ⟨0, _⟩ => exact Fin.ext rfl
  | ⟨1, _⟩ => exact Fin.ext rfl
  | ⟨2, _⟩ => exact Fin.ext rfl

/-- A vector `[c]` cast to `[1, 1, c]` reads, at `(u, v, k)`, the vector's entry `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- A `[1, 1, c]` array repeated to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => show 0 = if (1 : Nat) = 1 then 0 else p.val; rw [if_pos rfl]
  | ⟨1, _⟩ => show 0 = if (1 : Nat) = 1 then 0 else q.val; rw [if_pos rfl]
  | ⟨2, _⟩ =>
    show k.val = if c = 1 then 0 else k.val
    split
    · have := k.isLt; omega
    · rfl

end Idealize.ShloMosaic.ValueIdx

end
-- ==== Proof.KernelBlock.lean ====
/-
  What the kernel's body computes on one block of eight sequences, entry by entry.

  The body works on the block `[8, 512, 64]` flattened to a `[4096, 64]` matrix (row `b·512 + n` is position `n` of
  sequence `b`) for the four weight products, and on the rank-3 form for the scores, the softmax and the mix. Each
  stage below is stated over arbitrary operands and read at coordinates; composed, they say that the body's value at
  `(b, n, e)` is the gated two-branch attention of sequence `b` of the block.
-/
import proofs.«142567_j73504070303828_1_alg».proof.Proof.Gen.KernelIdeal.Skeleton
import proofs.«142567_j73504070303828_1_alg».proof.Proof.Views
import proofs.«142567_j73504070303828_1_alg».proof.Proof.LibRank3
import proofs.«142567_j73504070303828_1_alg».proof.Proof.LibMergeLead
import proofs.«142567_j73504070303828_1_alg».proof.Proof.LibPlainDot
import proofs.«142567_j73504070303828_1_alg».proof.Proof.LibBatchMix

noncomputable section

open scoped BigOperators

namespace Cert.KernelIdeal.Block

open Cert.KernelIdeal Cert.KernelIdeal.Gen Idealize.ShloMosaic Idealize.ShloMosaic.ValueIdx Cert.SelfAttn Cert.Views

/-- Row `b·512 + n` of the flattened block. -/
def row (b : Fin 8) (n : Fin 512) : Fin 4096 := ⟨b.val * 512 + n.val, by omega⟩

/-- Sequence `b` of a flattened block. -/
def seq (x : (⟨2, ![4096, 64]⟩ : Shape).Idx → EReal) (b : Fin 8) : Fin 512 → Fin 64 → EReal := fun n k => x (ix2 (row b n) k)

/-! ## The stages -/

/-- A weight product on the flattened block. -/
def kProj (x2 : FVec Ideal S4096x64 .bf16) (w : Vec Ideal S64x64 .f32) : FVec Ideal S4096x64 .f32 :=
  matmul dot_S4096x64_S64x64_S4096x64_1_0_0_1_n_n none x2 (truncf .bf16 w bitsLt_bf16_f32) (constant S4096x64 .f32 0x00000000#32)

theorem kProj_apply (x2 : FVec Ideal S4096x64 .bf16) (w : Vec Ideal S64x64 .f32) (b : Fin 8) :
    seq (kProj x2 w) b = proj (seq x2 b) (mat w) := by
  funext n d
  unfold seq kProj
  rw [PlainDot.matmul_zero_apply dot_S4096x64_S64x64_S4096x64_1_0_0_1_n_n rfl]
  rfl

/-- The scores of the block: queries scaled by one eighth, times the keys transposed, sequence by sequence. -/
def kScores (q k : FVec Ideal S4096x64 .f32) : FVec Ideal S8x512x512 .f32 :=
  matmul dot_S8x512x64_S8x512x64_S8x512x512_2_2_1_1_0_0 none
    (truncf .bf16 (mulf (shapeCast S8x512x64 q shapeCasts_S4096x64_S8x512x64) (broadcast S8x512x64 (Scalar.ofBits .f32 0x3E000000#32))) bitsLt_bf16_f32)
    (truncf .bf16 (shapeCast S8x512x64 k shapeCasts_S4096x64_S8x512x64) bitsLt_bf16_f32)
    (constant S8x512x512 .f32 0x00000000#32)

theorem kScores_apply (q k : FVec Ideal S4096x64 .f32) (b : Fin 8) :
    (fun n m => kScores q k (ix3 b n m)) = scoresPre c8 (seq q b) (seq k b) := by
  funext n m
  unfold kScores
  rw [BatchRhsTDot.matmul_zero_ix3 dot_S8x512x64_S8x512x64_S8x512x512_2_2_1_1_0_0 rfl rfl rfl rfl rfl rfl]
  refine Finset.sum_congr rfl fun d _ => ?_
  show (shapeCast S8x512x64 q shapeCasts_S4096x64_S8x512x64 (ix3 b n d) * c8) * shapeCast S8x512x64 k shapeCasts_S4096x64_S8x512x64 (ix3 b m d) = _
  rw [MergeLead.split_apply q _ b n d (row b n) rfl, MergeLead.split_apply k _ b m d (row b m) rfl]
  rfl

/-- The row maxima of the scores. -/
def kRowMax (s : FVec Ideal S8x512x512 .f32) : FVec Ideal S8x512 .f32 :=
  maximumf (broadcast S8x512 (Scalar.ofBits .f32 0xFF800000#32))
    (multiReduction .maximumf [2] S8x512 s 0xFF800000#32 reduces_S8x512x512_S8x512 (.inl rfl) rfl)

theorem kRowMax_apply (s : FVec Ideal S8x512x512 .f32) (b : Fin 8) (n : Fin 512) :
    kRowMax s (ix2 b n) = rowMax lo (fun n m => s (ix3 b n m)) n := by
  unfold kRowMax
  rw [maximumf_apply, max_axis2_of3]
  rfl

/-- A per-row value repeated along the row. -/
def kKeep (v : FVec Ideal S8x512 .f32) : FVec Ideal S8x512x512 .f32 :=
  broadcastTo S8x512x512 (shapeCast S8x512x1 v shapeCasts_S8x512_S8x512x1) broadcasts_S8x512x1_S8x512x512

theorem kKeep_apply (v : FVec Ideal S8x512 .f32) (b : Fin 8) (n m : Fin 512) : kKeep v (ix3 b n m) = v (ix2 b n) := by
  unfold kKeep
  rw [broadcastTo_ab1_abc_apply, shapeCast_ab_ab1_apply]

/-- The exponentials of the scores less their row maximum. -/
def kExp (s : FVec Ideal S8x512x512 .f32) : FVec Ideal S8x512x512 .f32 := exp (subf s (kKeep (kRowMax s)))

theorem kExp_apply (s : FVec Ideal S8x512x512 .f32) (b : Fin 8) (n m : Fin 512) :
    kExp s (ix3 b n m) = Ideal.exp (s (ix3 b n m) - rowMax lo (fun n m => s (ix3 b n m)) n) := by
  show Ideal.exp (s (ix3 b n m) - kKeep (kRowMax s) (ix3 b n m)) = _
  rw [kKeep_apply, kRowMax_apply]

/-- The softmax weights. -/
def kSoft (s : FVec Ideal S8x512x512 .f32) : FVec Ideal S8x512x512 .f32 :=
  divf (kExp s) (kKeep (multiReduction .add [2] S8x512 (kExp s) 0x00000000#32 reduces_S8x512x512_S8x512 (.inl rfl) rfl))

theorem kSoft_apply (s : FVec Ideal S8x512x512 .f32) (b : Fin 8) :
    (fun n m => kSoft s (ix3 b n m)) = soft lo (fun n m => s (ix3 b n m)) := by
  funext n m
  show Ideal.div (kExp s (ix3 b n m)) (kKeep _ (ix3 b n m)) = _
  rw [kKeep_apply, sum_axis2_of3, kExp_apply]
  exact congrArg (Ideal.div (Ideal.exp (s (ix3 b n m) - rowMax lo (fun n m => s (ix3 b n m)) n)))
    (Finset.sum_congr rfl fun m' _ => kExp_apply s b n m')

/-- The weights applied to the values, flattened again. -/
def kMix (w : FVec Ideal S8x512x512 .f32) (v : FVec Ideal S4096x64 .f32) : FVec Ideal S4096x64 .f32 :=
  shapeCast S4096x64
    (matmul dot_S8x512x512_S8x512x64_S8x512x64_2_1_1_2_0_0 none (truncf .bf16 w bitsLt_bf16_f32)
      (truncf .bf16 (shapeCast S8x512x64 v shapeCasts_S4096x64_S8x512x64) bitsLt_bf16_f32) (constant S8x512x64 .f32 0x00000000#32))
    shapeCasts_S8x512x64_S4096x64

theorem kMix_apply (w : FVec Ideal S8x512x512 .f32) (v : FVec Ideal S4096x64 .f32) (b : Fin 8) :
    seq (kMix w v) b = mix (fun n m => w (ix3 b n m)) (seq v b) := by
  funext n d
  unfold seq kMix
  rw [MergeLead.merge_apply _ _ b n d (row b n) rfl, BatchMix.matmul_zero_ix3 dot_S8x512x512_S8x512x64_S8x512x64_2_1_1_2_0_0 rfl rfl rfl rfl rfl rfl]
  refine Finset.sum_congr rfl fun m _ => ?_
  show w (ix3 b n m) * shapeCast S8x512x64 v shapeCasts_S4096x64_S8x512x64 (ix3 b m d) = _
  rw [MergeLead.split_apply v _ b m d (row b m) rfl]

/-- The dense layer on the flattened block, with the bias repeated over sequences and positions. -/
def kDense (a : FVec Ideal S4096x64 .f32) (wd : FVec Ideal S64x64 .bf16) (bd : Vec Ideal S64 .f32) : FVec Ideal S8x512x64 .f32 :=
  addf
    (shapeCast S8x512x64
      (matmul dot_S4096x64_S64x64_S4096x64_1_0_0_1_n_n none (truncf .bf16 a bitsLt_bf16_f32) wd (constant S4096x64 .f32 0x00000000#32))
      shapeCasts_S4096x64_S8x512x64)
    (broadcastTo S8x512x64 (shapeCast S1x1x64 bd shapeCasts_S64_S1x1x64) broadcasts_S1x1x64_S8x512x64)

theorem kDense_apply (a : FVec Ideal S4096x64 .f32) (wd : FVec Ideal S64x64 .bf16) (bd : Vec Ideal S64 .f32) (b : Fin 8) :
    (fun n e => kDense a wd bd (ix3 b n e)) = dense (seq a b) (mat wd) (vec bd) := by
  funext n e
  unfold kDense
  rw [addf_apply, MergeLead.split_apply _ _ b n e (row b n) rfl, PlainDot.matmul_zero_apply dot_S4096x64_S64x64_S4096x64_1_0_0_1_n_n rfl,
    broadcastTo_11c_abc_apply, shapeCast_c_11c_apply]
  rfl

/-! ## One branch, and the body -/

/-- The attention part of a branch on the flattened block: three weight products, scores, softmax, mix. -/
def kAttn (x2 : FVec Ideal S4096x64 .bf16) (w1 w2 w3 : Vec Ideal S64x64 .f32) : FVec Ideal S4096x64 .f32 :=
  kMix (kSoft (kScores (kProj x2 w1) (kProj x2 w2))) (kProj x2 w3)

theorem kBranch_apply (x2 : FVec Ideal S4096x64 .bf16) (w1 w2 w3 wd : Vec Ideal S64x64 .f32) (bd : Vec Ideal S64 .f32) (b : Fin 8) :
    (fun n e => kDense (kAttn x2 w1 w2 w3) (truncf .bf16 wd bitsLt_bf16_f32) bd (ix3 b n e))
      = attnPre c8 lo (seq x2 b) (mat w1) (mat w2) (mat w3) (mat wd) (vec bd) := by
  rw [kDense_apply]
  unfold kAttn
  rw [kMix_apply, kSoft_apply, kScores_apply, kProj_apply, kProj_apply, kProj_apply]
  rfl

/-- The first branch's attention part is the printed payload. -/
theorem pay4_eq (x0 : Vec Ideal S8x512x64 .f32) (w1 w2 w3 : Vec Ideal S64x64 .f32) :
    k0_pay4 x0 w1 w2 w3 = kAttn (k0_pay2 x0) w1 w2 w3 := rfl

/-- The second branch's attention part is the printed payload. -/
theorem pay7_eq (x2 : FVec Ideal S4096x64 .bf16) (w4 w5 w6 : Vec Ideal S64x64 .f32) :
    k0_pay7 x2 w4 w5 w6 = kAttn x2 w4 w5 w6 := rfl

/-- The first branch's dense layer is the printed payload. -/
theorem pay5_eq (wd : FVec Ideal S64x64 .bf16) (bd : Vec Ideal S64 .f32) (a : FVec Ideal S4096x64 .f32) :
    k0_pay5 wd bd a = kDense a wd bd := rfl

/-- The stored value: the second dense layer, the sum of the branches, the logistic gate, the product with the block. -/
theorem pay1_eq (x0 : Vec Ideal S8x512x64 .f32) (t : FVec Ideal S8x512x64 .f32) (wd : FVec Ideal S64x64 .bf16) (bd : Vec Ideal S64 .f32)
    (a : FVec Ideal S4096x64 .f32) :
    k0_pay1 x0 t wd bd a = mulf x0 (logistic (addf t (kDense a wd bd))) := rfl

/-- The flattened block's sequence `b` is the block's sequence `b`. -/
theorem seq_pay2 (x0 : Vec Ideal S8x512x64 .f32) (b : Fin 8) : seq (k0_pay2 x0) b = slab x0 b := by
  funext n k
  unfold seq k0_pay2
  exact MergeLead.merge_apply _ _ b n k (row b n) rfl

/-- THE BODY'S VALUE at `(b, n, e)`: the gated two-branch attention of sequence `b` of the block. -/
theorem body_apply (x0 : Vec Ideal S8x512x64 .f32) (x1 x2 x3 x4 x5 x6 x7 : Vec Ideal S64x64 .f32) (x8 : Vec Ideal S64 .f32)
    (x9 : Vec Ideal S64x64 .f32) (x10 : Vec Ideal S64 .f32) (b : Fin 8) (n : Fin 512) (e : Fin 64) :
    k0_pay1 x0 (k0_pay5 (k0_pay3 x7) x8 (k0_pay4 x0 x1 x2 x3)) (k0_pay6 x9) x10 (k0_pay7 (k0_pay2 x0) x4 x5 x6) (ix3 b n e)
      = gated x0 x1 x2 x3 x4 x5 x6 x7 x8 x9 x10 (ix3 b n e) := by
  rw [pay1_eq, pay5_eq, pay4_eq, pay7_eq]
  have h1 := congrFun (congrFun (kBranch_apply (k0_pay2 x0) x1 x2 x3 x7 x8 b) n) e
  have h2 := congrFun (congrFun (kBranch_apply (k0_pay2 x0) x4 x5 x6 x9 x10 b) n) e
  rw [seq_pay2] at h1 h2
  show x0 (ix3 b n e) * Ideal.logistic (kDense (kAttn (k0_pay2 x0) x1 x2 x3) (k0_pay3 x7) x8 (ix3 b n e)
      + kDense (kAttn (k0_pay2 x0) x4 x5 x6) (k0_pay6 x9) x10 (ix3 b n e)) = _
  exact congrArg₂ (fun u v => x0 (ix3 b n e) * Ideal.logistic (u + v)) h1 h2

end Cert.KernelIdeal.Block

end
-- ==== Proof.KernelValue.lean ====
/-
  From the blocks to the whole array: after the kernel's run the result array holds, at every `(B, n, e)`, the gated
  two-branch attention of sequence `B` of the argument.

  The grid has 32 points; point `t` stages sequences `8t … 8t + 7` of the stack (and the whole of every weight and bias
  array), runs the body on that block, and writes its result back to sequences `8t … 8t + 7` of the result array. The
  body's value at `(b, n, e)` of the block is the gated attention of the block's sequence `b`, which is sequence
  `8t + b` of the stack; the 32 blocks tile the 256 sequences, so the array is the gated attention everywhere.
-/
import proofs.«142567_j73504070303828_1_alg».proof.Proof.Gen.KernelIdeal.Value
import proofs.«142567_j73504070303828_1_alg».proof.Proof.KernelBlock

noncomputable section

namespace Cert.KernelIdeal.ArrayValue

open Cert.KernelIdeal Cert.KernelIdeal.Gen Cert.KernelIdeal.Block Idealize.ShloMosaic Idealize.ShloMosaic.TcCoe Idealize.SL.Sem
  Idealize.ShloMosaic.ValueIdx Cert.Views
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the 32 grid points -/

/-- The stack's window and the result's window are at block `(t, 0, 0)` at point `t`. -/
theorem moving_facts : ∀ t : Fin cfg0.N, win0_0.index t (0 : Fin 3) = t.val ∧ win0_0.index t (1 : Fin 3) = 0 ∧ win0_0.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-- Every weight and bias window is at block zero at every point. -/
theorem idx1_0 : ∀ t : Fin cfg0.N, win0_1.index t (0 : Fin 2) = 0 := (by decide +kernel : ∀ t : Fin grid0.N, _)
theorem idx1_1 : ∀ t : Fin cfg0.N, win0_1.index t (1 : Fin 2) = 0 := (by decide +kernel : ∀ t : Fin grid0.N, _)
theorem idx2_0 : ∀ t : Fin cfg0.N, win0_2.index t (0 : Fin 2) = 0 := (by decide +kernel : ∀ t : Fin grid0.N, _)
theorem idx2_1 : ∀ t : Fin cfg0.N, win0_2.index t (1 : Fin 2) = 0 := (by decide +kernel : ∀ t : Fin grid0.N, _)
theorem idx3_0 : ∀ t : Fin cfg0.N, win0_3.index t (0 : Fin 2) = 0 := (by decide +kernel : ∀ t : Fin grid0.N, _)
theorem idx3_1 : ∀ t : Fin cfg0.N, win0_3.index t (1 : Fin 2) = 0 := (by decide +kernel : ∀ t : Fin grid0.N, _)
theorem idx4_0 : ∀ t : Fin cfg0.N, win0_4.index t (0 : Fin 2) = 0 := (by decide +kernel : ∀ t : Fin grid0.N, _)
theorem idx4_1 : ∀ t : Fin cfg0.N, win0_4.index t (1 : Fin 2) = 0 := (by decide +kernel : ∀ t : Fin grid0.N, _)
theorem idx5_0 : ∀ t : Fin cfg0.N, win0_5.index t (0 : Fin 2) = 0 := (by decide +kernel : ∀ t : Fin grid0.N, _)
theorem idx5_1 : ∀ t : Fin cfg0.N, win0_5.index t (1 : Fin 2) = 0 := (by decide +kernel : ∀ t : Fin grid0.N, _)
theorem idx6_0 : ∀ t : Fin cfg0.N, win0_6.index t (0 : Fin 2) = 0 := (by decide +kernel : ∀ t : Fin grid0.N, _)
theorem idx6_1 : ∀ t : Fin cfg0.N, win0_6.index t (1 : Fin 2) = 0 := (by decide +kernel : ∀ t : Fin grid0.N, _)
theorem idx7_0 : ∀ t : Fin cfg0.N, win0_7.index t (0 : Fin 2) = 0 := (by decide +kernel : ∀ t : Fin grid0.N, _)
theorem idx7_1 : ∀ t : Fin cfg0.N, win0_7.index t (1 : Fin 2) = 0 := (by decide +kernel : ∀ t : Fin grid0.N, _)
theorem idx8_0 : ∀ t : Fin cfg0.N, win0_8.index t (0 : Fin 1) = 0 := (by decide +kernel : ∀ t : Fin grid0.N, _)
theorem idx9_0 : ∀ t : Fin cfg0.N, win0_9.index t (0 : Fin 2) = 0 := (by decide +kernel : ∀ t : Fin grid0.N, _)
theorem idx9_1 : ∀ t : Fin cfg0.N, win0_9.index t (1 : Fin 2) = 0 := (by decide +kernel : ∀ t : Fin grid0.N, _)
theorem idx10_0 : ∀ t : Fin cfg0.N, win0_10.index t (0 : Fin 1) = 0 := (by decide +kernel : ∀ t : Fin grid0.N, _)

/-! ## The input blocks -/

/-- Input window 1 holds the whole of its array at every point. -/
theorem iblk_whole1 (c : Dev nD) (t : Fin cfg0.N) : (iblk m c 1 t : Vec Ideal S64x64 .f32) = V m c main_arg1 := by
  have h0 : win0_1.index t (0 : Fin 2) = 0 := idx1_0 t
  have h1 : win0_1.index t (1 : Fin 2) = 0 := idx1_1 t
  funext y
  unfold iblk
  rw [View.read_apply]
  show V m c main_arg1 _ = V m c main_arg1 y
  congr 1
  funext a
  apply Fin.ext
  match a with
  | ⟨0, _⟩ => show win0_1.index t (0 : Fin 2) * 64 + 1 * (y 0).val = (y 0).val; rw [h0]; omega
  | ⟨1, _⟩ => show win0_1.index t (1 : Fin 2) * 64 + 1 * (y 1).val = (y 1).val; rw [h1]; omega

/-- Input window 2 holds the whole of its array at every point. -/
theorem iblk_whole2 (c : Dev nD) (t : Fin cfg0.N) : (iblk m c 2 t : Vec Ideal S64x64 .f32) = V m c main_arg2 := by
  have h0 : win0_2.index t (0 : Fin 2) = 0 := idx2_0 t
  have h1 : win0_2.index t (1 : Fin 2) = 0 := idx2_1 t
  funext y
  unfold iblk
  rw [View.read_apply]
  show V m c main_arg2 _ = V m c main_arg2 y
  congr 1
  funext a
  apply Fin.ext
  match a with
  | ⟨0, _⟩ => show win0_2.index t (0 : Fin 2) * 64 + 1 * (y 0).val = (y 0).val; rw [h0]; omega
  | ⟨1, _⟩ => show win0_2.index t (1 : Fin 2) * 64 + 1 * (y 1).val = (y 1).val; rw [h1]; omega

/-- Input window 3 holds the whole of its array at every point. -/
theorem iblk_whole3 (c : Dev nD) (t : Fin cfg0.N) : (iblk m c 3 t : Vec Ideal S64x64 .f32) = V m c main_arg3 := by
  have h0 : win0_3.index t (0 : Fin 2) = 0 := idx3_0 t
  have h1 : win0_3.index t (1 : Fin 2) = 0 := idx3_1 t
  funext y
  unfold iblk
  rw [View.read_apply]
  show V m c main_arg3 _ = V m c main_arg3 y
  congr 1
  funext a
  apply Fin.ext
  match a with
  | ⟨0, _⟩ => show win0_3.index t (0 : Fin 2) * 64 + 1 * (y 0).val = (y 0).val; rw [h0]; omega
  | ⟨1, _⟩ => show win0_3.index t (1 : Fin 2) * 64 + 1 * (y 1).val = (y 1).val; rw [h1]; omega

/-- Input window 4 holds the whole of its array at every point. -/
theorem iblk_whole4 (c : Dev nD) (t : Fin cfg0.N) : (iblk m c 4 t : Vec Ideal S64x64 .f32) = V m c main_arg4 := by
  have h0 : win0_4.index t (0 : Fin 2) = 0 := idx4_0 t
  have h1 : win0_4.index t (1 : Fin 2) = 0 := idx4_1 t
  funext y
  unfold iblk
  rw [View.read_apply]
  show V m c main_arg4 _ = V m c main_arg4 y
  congr 1
  funext a
  apply Fin.ext
  match a with
  | ⟨0, _⟩ => show win0_4.index t (0 : Fin 2) * 64 + 1 * (y 0).val = (y 0).val; rw [h0]; omega
  | ⟨1, _⟩ => show win0_4.index t (1 : Fin 2) * 64 + 1 * (y 1).val = (y 1).val; rw [h1]; omega

/-- Input window 5 holds the whole of its array at every point. -/
theorem iblk_whole5 (c : Dev nD) (t : Fin cfg0.N) : (iblk m c 5 t : Vec Ideal S64x64 .f32) = V m c main_arg5 := by
  have h0 : win0_5.index t (0 : Fin 2) = 0 := idx5_0 t
  have h1 : win0_5.index t (1 : Fin 2) = 0 := idx5_1 t
  funext y
  unfold iblk
  rw [View.read_apply]
  show V m c main_arg5 _ = V m c main_arg5 y
  congr 1
  funext a
  apply Fin.ext
  match a with
  | ⟨0, _⟩ => show win0_5.index t (0 : Fin 2) * 64 + 1 * (y 0).val = (y 0).val; rw [h0]; omega
  | ⟨1, _⟩ => show win0_5.index t (1 : Fin 2) * 64 + 1 * (y 1).val = (y 1).val; rw [h1]; omega

/-- Input window 6 holds the whole of its array at every point. -/
theorem iblk_whole6 (c : Dev nD) (t : Fin cfg0.N) : (iblk m c 6 t : Vec Ideal S64x64 .f32) = V m c main_arg6 := by
  have h0 : win0_6.index t (0 : Fin 2) = 0 := idx6_0 t
  have h1 : win0_6.index t (1 : Fin 2) = 0 := idx6_1 t
  funext y
  unfold iblk
  rw [View.read_apply]
  show V m c main_arg6 _ = V m c main_arg6 y
  congr 1
  funext a
  apply Fin.ext
  match a with
  | ⟨0, _⟩ => show win0_6.index t (0 : Fin 2) * 64 + 1 * (y 0).val = (y 0).val; rw [h0]; omega
  | ⟨1, _⟩ => show win0_6.index t (1 : Fin 2) * 64 + 1 * (y 1).val = (y 1).val; rw [h1]; omega

/-- Input window 7 holds the whole of its array at every point. -/
theorem iblk_whole7 (c : Dev nD) (t : Fin cfg0.N) : (iblk m c 7 t : Vec Ideal S64x64 .f32) = V m c main_arg7 := by
  have h0 : win0_7.index t (0 : Fin 2) = 0 := idx7_0 t
  have h1 : win0_7.index t (1 : Fin 2) = 0 := idx7_1 t
  funext y
  unfold iblk
  rw [View.read_apply]
  show V m c main_arg7 _ = V m c main_arg7 y
  congr 1
  funext a
  apply Fin.ext
  match a with
  | ⟨0, _⟩ => show win0_7.index t (0 : Fin 2) * 64 + 1 * (y 0).val = (y 0).val; rw [h0]; omega
  | ⟨1, _⟩ => show win0_7.index t (1 : Fin 2) * 64 + 1 * (y 1).val = (y 1).val; rw [h1]; omega

/-- Input window 8 holds the whole of its array at every point. -/
theorem iblk_whole8 (c : Dev nD) (t : Fin cfg0.N) : (iblk m c 8 t : Vec Ideal S64 .f32) = V m c main_arg8 := by
  have h0 : win0_8.index t (0 : Fin 1) = 0 := idx8_0 t
  funext y
  unfold iblk
  rw [View.read_apply]
  show V m c main_arg8 _ = V m c main_arg8 y
  congr 1
  funext a
  apply Fin.ext
  match a with
  | ⟨0, _⟩ => show win0_8.index t (0 : Fin 1) * 64 + 1 * (y 0).val = (y 0).val; rw [h0]; omega

/-- Input window 9 holds the whole of its array at every point. -/
theorem iblk_whole9 (c : Dev nD) (t : Fin cfg0.N) : (iblk m c 9 t : Vec Ideal S64x64 .f32) = V m c main_arg9 := by
  have h0 : win0_9.index t (0 : Fin 2) = 0 := idx9_0 t
  have h1 : win0_9.index t (1 : Fin 2) = 0 := idx9_1 t
  funext y
  unfold iblk
  rw [View.read_apply]
  show V m c main_arg9 _ = V m c main_arg9 y
  congr 1
  funext a
  apply Fin.ext
  match a with
  | ⟨0, _⟩ => show win0_9.index t (0 : Fin 2) * 64 + 1 * (y 0).val = (y 0).val; rw [h0]; omega
  | ⟨1, _⟩ => show win0_9.index t (1 : Fin 2) * 64 + 1 * (y 1).val = (y 1).val; rw [h1]; omega

/-- Input window 10 holds the whole of its array at every point. -/
theorem iblk_whole10 (c : Dev nD) (t : Fin cfg0.N) : (iblk m c 10 t : Vec Ideal S64 .f32) = V m c main_arg10 := by
  have h0 : win0_10.index t (0 : Fin 1) = 0 := idx10_0 t
  funext y
  unfold iblk
  rw [View.read_apply]
  show V m c main_arg10 _ = V m c main_arg10 y
  congr 1
  funext a
  apply Fin.ext
  match a with
  | ⟨0, _⟩ => show win0_10.index t (0 : Fin 1) * 64 + 1 * (y 0).val = (y 0).val; rw [h0]; omega

/-- The stack's block at point `t` holds sequences `8t … 8t + 7`. -/
theorem iblk0_slab (c : Dev nD) (t : Fin cfg0.N) (b : Fin 8) (B : Fin 256) (hB : B.val = t.val * 8 + b.val) :
    slab (iblk m c 0 t : Vec Ideal S8x512x64 .f32) b = slab (V m c main_arg0) B := by
  obtain ⟨e0, e1, e2, -, -, -⟩ := moving_facts t
  funext n k
  show (iblk m c 0 t : Vec Ideal S8x512x64 .f32) (ix3 b n k) = V m c main_arg0 (ix3 B n k)
  unfold iblk
  rw [View.read_apply]
  show V m c main_arg0 _ = V m c main_arg0 (ix3 B n k)
  congr 1
  funext a
  apply Fin.ext
  match a with
  | ⟨0, _⟩ => show win0_0.index t (0 : Fin 3) * 8 + 1 * b.val = B.val; rw [e0, hB]; omega
  | ⟨1, _⟩ => show win0_0.index t (1 : Fin 3) * 512 + 1 * n.val = n.val; rw [e1]; omega
  | ⟨2, _⟩ => show win0_0.index t (2 : Fin 3) * 64 + 1 * k.val = k.val; rw [e2]; omega

/-! ## What a point writes back -/

/-- The result both programs compute, of the argument arrays as the region finds them. -/
abbrev result (c : Dev nD) : S256x512x64.Idx → EReal := gated (V m c main_arg0) (V m c main_arg1) (V m c main_arg2) (V m c main_arg3) (V m c main_arg4) (V m c main_arg5) (V m c main_arg6) (V m c main_arg7) (V m c main_arg8) (V m c main_arg9) (V m c main_arg10)

/-- The body's value at an entry of point `t`'s block is the result at the entry's place in the array. -/
theorem point_value (c : Dev nD) (t : Fin cfg0.N) (x1 x2 x3 x4 x5 x6 x7 : Vec Ideal S64x64 .f32) (x8 : Vec Ideal S64 .f32)
    (x9 : Vec Ideal S64x64 .f32) (x10 : Vec Ideal S64 .f32) (y : S8x512x64.Idx) :
    k0_pay1 (iblk m c 0 t) (k0_pay5 (k0_pay3 x7) x8 (k0_pay4 (iblk m c 0 t) x1 x2 x3)) (k0_pay6 x9) x10
        (k0_pay7 (k0_pay2 (iblk m c 0 t)) x4 x5 x6) y
      = gated (V m c main_arg0) x1 x2 x3 x4 x5 x6 x7 x8 x9 x10 (((cfg0.win 11).blk t).view.emb y) := by
  obtain ⟨b, n, e, rfl⟩ : ∃ (b : Fin 8) (n : Fin 512) (e : Fin 64), y = ix3 b n e := ⟨y 0, y 1, y 2, eq_ix3 y⟩
  obtain ⟨-, -, -, e0, e1, e2⟩ := moving_facts t
  have ht : t.val < 32 := lt_of_lt_of_eq t.isLt N_0
  have hemb : ((cfg0.win 11).blk t).view.emb (ix3 b n e) = ix3 (⟨t.val * 8 + b.val, by omega⟩ : Fin 256) n e := by
    funext a
    apply Fin.ext
    match a with
    | ⟨0, _⟩ => show win0_11.index t (0 : Fin 3) * 8 + 1 * b.val = t.val * 8 + b.val; rw [e0]; omega
    | ⟨1, _⟩ => show win0_11.index t (1 : Fin 3) * 512 + 1 * n.val = n.val; rw [e1]; omega
    | ⟨2, _⟩ => show win0_11.index t (2 : Fin 3) * 64 + 1 * e.val = e.val; rw [e2]; omega
  rw [hemb, body_apply]
  exact gated_block _ _ x1 x2 x3 x4 x5 x6 x7 x8 x9 x10 b _ (iblk0_slab m c t b _ rfl) n e

/-- WHAT POINT `t` WRITES BACK is block `t` of the result. -/
theorem flushed_eq (c : Dev nD) (t : Fin cfg0.N) :
    (dats m 0 c).flushed 11 t = ((cfg0.win 11).blk t).view.read (Elt Ideal) (result m c) := by
  rw [Value.flushed11]
  unfold out0_11
  rw [View.canon_unit_zero hz3]
  simp only [View.ld_unit_zero (S := S8x512x64) hz3, View.ld_unit_zero (S := S64x64) hz2, View.ld_unit_zero (S := S64) hz1]
  rw [iblk_whole1, iblk_whole2, iblk_whole3, iblk_whole4, iblk_whole5, iblk_whole6, iblk_whole7, iblk_whole8, iblk_whole9, iblk_whole10]
  funext y
  exact point_value m c t _ _ _ _ _ _ _ _ _ _ y

/-! ## The cover, and the run -/

/-- An index of the array is in point `t`'s block iff each coordinate is in the block's range on its axis. -/
theorem mem_blk (t : Fin cfg0.N) (i : S256x512x64.Idx) :
    i ∈ ((cfg0.win 11).blk t).view.set ↔ ∀ a : Fin 3, win0_11.index t a * S8x512x64.size a ≤ (i a).val ∧ (i a).val < win0_11.index t a * S8x512x64.size a + S8x512x64.size a := by
  show i ∈ ((View.whole main_v0).slice (win0_11.rect t)).set ↔ _
  rw [View.set_slice_whole, Rect.mem_set_unit]
  exact Iff.rfl

/-- Every index of the result array is in the block of the point its sequence belongs to. -/
theorem cover (i : S256x512x64.Idx) : ∃ t : Fin cfg0.N, (cfg0.win 11).flush t = true ∧ i ∈ ((cfg0.win 11).blk t).view.set := by
  have h0 : (i 0).val < 256 := (i 0).isLt
  have h1 : (i 1).val < 512 := (i 1).isLt
  have h2 : (i 2).val < 64 := (i 2).isLt
  refine ⟨⟨(i 0).val / 8, lt_of_lt_of_eq (by omega : (i 0).val / 8 < 32) N_0.symm⟩, flush0_11 _, ?_⟩
  rw [mem_blk]
  obtain ⟨-, -, -, e0, e1, e2⟩ := moving_facts ⟨(i 0).val / 8, lt_of_lt_of_eq (by omega : (i 0).val / 8 < 32) N_0.symm⟩
  intro a
  match a with
  | ⟨0, _⟩ => show win0_11.index _ (0 : Fin 3) * 8 ≤ (i 0).val ∧ (i 0).val < win0_11.index _ (0 : Fin 3) * 8 + 8; rw [e0]; show (i 0).val / 8 * 8 ≤ (i 0).val ∧ (i 0).val < (i 0).val / 8 * 8 + 8; omega
  | ⟨1, _⟩ => show win0_11.index _ (1 : Fin 3) * 512 ≤ (i 1).val ∧ (i 1).val < win0_11.index _ (1 : Fin 3) * 512 + 512; rw [e1]; omega
  | ⟨2, _⟩ => show win0_11.index _ (2 : Fin 3) * 64 ≤ (i 2).val ∧ (i 2).val < win0_11.index _ (2 : Fin 3) * 64 + 64; rw [e2]; omega

/-- THE ARRAY after the run is the result. -/
theorem final (c : Dev nD) : (dats m 0 c).arrAt 11 cfg0.N = result m c :=
  (dats m 0 c).arrAt_eq_of_cover 11 (result m c) (fun t _ => flushed_eq m c t) cover

/-- The kernel's run: every weakly fair execution terminates with the result array at the gated two-branch attention
    of the argument arrays, and the arguments unchanged. -/
theorem run : θ_run defs (onTc (τ := τ) (main (F := Ideal))) ⟨m, fun _ => 0, ρ⟩ fun r => ∀ c : Dev nD,
      r.2.mem ((c : Thread nD τ).loc main_v0) = gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.Consts.lean ====
/-
  The float words the two programs spell, as the extended reals they denote: one eighth (the scale the kernel
  multiplies the queries by), one, and sixty-four (from which the reference computes the same scale as 1 / sqrt 64).
  Since sqrt 64 = 8 exactly, the reference's computed scale IS one eighth; it is positive and finite, which is all the
  algebra needs of it.
-/
import Idealize.ShloMosaic.PureOps.Ideal

noncomputable section

namespace Cert.Consts

open Idealize.ShloMosaic

/-- The word of `0.125` denotes the real one eighth. -/
theorem ofBits_eighth : Ideal.ofBits .f32 0x3E000000#32 = (((1 / 8 : ℝ)) : EReal) := by
  simp [Ideal.ofBits, Ideal.ieee, -EReal.coe_mul]; norm_num

/-- The word of `1.0` denotes one. -/
theorem ofBits_one : Ideal.ofBits .f32 0x3F800000#32 = 1 := by
  simp [Ideal.ofBits, Ideal.ieee, -EReal.coe_mul]; norm_num

/-- The word of `64.0` denotes the real sixty-four. -/
theorem ofBits_64 : Ideal.ofBits .f32 0x42800000#32 = ((64 : ℝ) : EReal) := by
  simp [Ideal.ofBits, Ideal.ieee, -EReal.coe_mul]; norm_num

/-- The square root of sixty-four is eight. -/
theorem sqrt_64 : Real.sqrt 64 = 8 := by
  rw [show (64 : ℝ) = 8 ^ 2 by norm_num]
  exact Real.sqrt_sq (by norm_num)

/-- The reference's scale, one over the square root of sixty-four, is the kernel's literal one eighth. -/
theorem inv_sqrt_64 :
    Ideal.div (Ideal.ofBits .f32 0x3F800000#32) (Ideal.sqrt (Ideal.ofBits .f32 0x42800000#32))
      = Ideal.ofBits .f32 0x3E000000#32 := by
  rw [ofBits_one, ofBits_64, ofBits_eighth, Ideal.sqrt_coe, if_neg (by norm_num), sqrt_64,
    Ideal.div_coe (by norm_num : (8 : ℝ) ≠ 0), one_mul]

/-- One eighth is nonnegative. -/
theorem eighth_nonneg : (0 : EReal) ≤ Ideal.ofBits .f32 0x3E000000#32 := by
  rw [ofBits_eighth]; exact_mod_cast (by norm_num : (0 : ℝ) ≤ 1 / 8)

/-- One eighth is finite. -/
theorem eighth_ne_top : Ideal.ofBits .f32 0x3E000000#32 ≠ ⊤ := by
  rw [ofBits_eighth]; exact EReal.coe_ne_top _

end Cert.Consts

end
-- ==== Proof.RefValue.lean ====
/-
  What the reference computes, entry by entry: the gated two-branch attention of the stack of 256 sequences.

  The reference's operations act on whole `[256, 512, ·]` arrays; read at `(B, n, ·)` each stage depends on sequence `B`
  alone. Stage by stage: the three weight products are `proj`; the scores are the product of queries and keys scaled
  AFTERWARDS by `1 / sqrt 64`, which is one eighth; the row maximum, the exponentials, their row sums and the quotient are
  the softmax; then the mix with the values and the dense layer. The second branch is the same function of its own
  weights. At the end the afterwards-scaled branch is rewritten to the queries-scaled-first one (the scale is nonnegative
  and finite), and `1 / (1 + exp (−z))` is the logistic function.
-/
import proofs.«142567_j73504070303828_1_alg».proof.Proof.Gen.ReferenceIdeal.Read
import proofs.«142567_j73504070303828_1_alg».proof.Proof.Views
import proofs.«142567_j73504070303828_1_alg».proof.Proof.Consts
import proofs.«142567_j73504070303828_1_alg».proof.Proof.LibBatchMix

noncomputable section

open scoped BigOperators

namespace Cert.ReferenceIdeal.RefValue

open Cert.ReferenceIdeal Cert.ReferenceIdeal.Gen Cert.ReferenceIdeal.Read Idealize.ShloMosaic Idealize.ShloMosaic.ValueIdx
  Cert.SelfAttn Cert.Views

/-- The stack of sequences, a weight matrix and a bias, as the reference's argument arrays hold them. -/
abbrev A3 : Type := (⟨S256x512x64, .f32⟩ : BufTy).Contents (Elt Ideal)
abbrev A2 : Type := (⟨S64x64, .f32⟩ : BufTy).Contents (Elt Ideal)
abbrev A1 : Type := (⟨S64, .f32⟩ : BufTy).Contents (Elt Ideal)

/-- Two rank-3 indices with equal coordinates are equal. -/
theorem idx3_ext {n0 n1 n2 : ℕ} (i j : (⟨3, ![n0, n1, n2]⟩ : Shape).Idx) (h0 : i 0 = j 0) (h1 : i 1 = j 1) (h2 : i 2 = j 2) : i = j := by
  funext a
  match a with
  | ⟨0, _⟩ => exact h0
  | ⟨1, _⟩ => exact h1
  | ⟨2, _⟩ => exact h2

/-- Two rank-2 indices with equal coordinates are equal. -/
theorem idx2_ext {n0 n1 : ℕ} (i j : (⟨2, ![n0, n1]⟩ : Shape).Idx) (h0 : i 0 = j 0) (h1 : i 1 = j 1) : i = j := by
  funext a
  match a with
  | ⟨0, _⟩ => exact h0
  | ⟨1, _⟩ => exact h1

/-- Two rank-1 indices with equal coordinates are equal. -/
theorem idx1_ext {n0 : ℕ} (i j : (⟨1, ![n0]⟩ : Shape).Idx) (h0 : i 0 = j 0) : i = j := by
  funext a
  match a with
  | ⟨0, _⟩ => exact h0

/-- A weight product of the stack, at sequence `B`. -/
theorem proj_at (x0 : A3) (w : A2) (B : Fin 256) :
    (fun n d => val_main_v0 (F := Ideal) x0 w (ix3 B n d)) = proj (slab x0 B) (mat w) := by
  funext n d
  rw [val_main_v0_apply]
  exact Finset.sum_congr rfl fun k _ => congrArg₂ (· * ·) (congrArg x0 (idx3_ext _ _ rfl rfl rfl)) (congrArg w (idx2_ext _ _ rfl rfl))

/-- The scores of sequence `B`: queries times keys, scaled afterwards by one eighth. -/
theorem scores_at (x0 : A3) (w1 w2 : A2) (B : Fin 256) :
    (fun n m => val_main_v7 (F := Ideal) x0 w1 w2 (ix3 B n m))
      = scoresPost c8 (proj (slab x0 B) (mat w1)) (proj (slab x0 B) (mat w2)) := by
  funext n m
  rw [val_main_v7_apply, val_main_v5_apply, val_main_v6_apply]
  have hc : val_main_v4 (F := Ideal) (idx_main_v6 (ix3 B n m)) = c8 := Consts.inv_sqrt_64
  rw [hc]
  refine congrArg (· * c8) (Finset.sum_congr rfl fun k _ => ?_)
  exact congrArg₂ (· * ·)
    ((congrArg (val_main_v0 (F := Ideal) x0 w1) (idx3_ext (lidx_main_v5 (ix3 B n m) k) (ix3 B n k) rfl rfl rfl)).trans (congrFun (congrFun (proj_at x0 w1 B) n) k))
    ((congrArg (val_main_v0 (F := Ideal) x0 w2) (idx3_ext (ridx_main_v5 (ix3 B n m) k) (ix3 B m k) rfl rfl rfl)).trans (congrFun (congrFun (proj_at x0 w2 B) m) k))

/-- The row maximum of the scores of sequence `B`. -/
theorem rowmax_at (x0 : A3) (w1 w2 : A2) (B : Fin 256) (n : Fin 512) :
    val_main_v10 (F := Ideal) x0 w1 w2 (ix2 B n)
      = rowMax lo (fun n m => val_main_v7 (F := Ideal) x0 w1 w2 (ix3 B n m)) n := by
  rw [val_main_v10_apply, val_main_v9_apply]
  unfold val_main_v8
  rw [hostReduce_maximumf_axis2_of3_apply _ _ _ (by decide)]
  rfl

/-- The exponential of a score less its row maximum. -/
theorem exp_at (x0 : A3) (w1 w2 : A2) (B : Fin 256) (n m : Fin 512) :
    val_main_v14 (F := Ideal) x0 w1 w2 (ix3 B n m)
      = Ideal.exp (val_main_v7 (F := Ideal) x0 w1 w2 (ix3 B n m)
          - rowMax lo (fun n m => val_main_v7 (F := Ideal) x0 w1 w2 (ix3 B n m)) n) := by
  rw [val_main_v14_apply, val_main_v13_apply, val_main_v12_apply, val_main_v11_apply]
  have e : idx_main_v11 (idx_main_v12 (ix3 B n m)) = ix2 B n := idx2_ext _ _ rfl rfl
  rw [e, rowmax_at]
  rfl

/-- The softmax weights of sequence `B`. -/
theorem soft_at (x0 : A3) (w1 w2 : A2) (B : Fin 256) :
    (fun n m => val_main_v18 (F := Ideal) x0 w1 w2 (ix3 B n m))
      = soft lo (fun n m => val_main_v7 (F := Ideal) x0 w1 w2 (ix3 B n m)) := by
  funext n m
  rw [val_main_v18_apply, val_main_v17_apply, val_main_v16_apply]
  have e : idx_main_v16 (idx_main_v17 (ix3 B n m)) = ix2 B n := idx2_ext _ _ rfl rfl
  rw [e, val_main_v15_apply, exp_at]
  have z : val_main_cst_3 (F := Ideal) (Shape.Idx.first h_S_) = 0 := Ideal.ofBits_zero_f32
  rw [z, zero_add]
  exact congrArg (Ideal.div _) (Finset.sum_congr rfl fun k _ =>
    (congrArg (val_main_v14 (F := Ideal) x0 w1 w2) (idx3_ext (idx_main_v15 (ix2 B n) k) (ix3 B n k) rfl rfl rfl)).trans (exp_at x0 w1 w2 B n k))

/-- The weights applied to the values of sequence `B`. -/
theorem mix_at (x0 : A3) (w1 w2 w3 : A2) (B : Fin 256) :
    (fun n d => val_main_v19 (F := Ideal) x0 w1 w2 w3 (ix3 B n d))
      = mix (soft lo (fun n m => val_main_v7 (F := Ideal) x0 w1 w2 (ix3 B n m))) (proj (slab x0 B) (mat w3)) := by
  funext n d
  rw [val_main_v19_apply]
  exact Finset.sum_congr rfl fun k _ => congrArg₂ (· * ·)
    ((congrArg (val_main_v18 (F := Ideal) x0 w1 w2) (idx3_ext (lidx_main_v19 (ix3 B n d) k) (ix3 B n k) rfl rfl rfl)).trans (congrFun (congrFun (soft_at x0 w1 w2 B) n) k))
    ((congrArg (val_main_v0 (F := Ideal) x0 w3) (idx3_ext (ridx_main_v19 (ix3 B n d) k) (ix3 B k d) rfl rfl rfl)).trans (congrFun (congrFun (proj_at x0 w3 B) k) d))

/-- One whole branch of the reference at sequence `B`, its scores scaled afterwards. -/
theorem branch_at (x0 : A3) (w1 w2 w3 wd : A2) (bd : A1) (B : Fin 256) (n : Fin 512) (e : Fin 64) :
    val_main_v23 (F := Ideal) x0 w1 w2 w3 wd bd (ix3 B n e)
      = attnPost c8 lo (slab x0 B) (mat w1) (mat w2) (mat w3) (mat wd) (vec bd) n e := by
  rw [val_main_v23_apply, val_main_v20_apply, val_main_v22_apply, val_main_v21_apply]
  have hM := mix_at x0 w1 w2 w3 B
  rw [scores_at x0 w1 w2 B] at hM
  unfold attnPost branch dense
  refine congrArg₂ (· + ·) (Finset.sum_congr rfl fun k _ => congrArg₂ (· * ·) ?_ (congrArg wd (idx2_ext (ridx_main_v20 (ix3 B n e) k) (ix2 k e) rfl rfl)))
    (congrArg bd (idx1_ext (idx_main_v21 (idx_main_v22 (ix3 B n e))) (ix1 e) rfl))
  exact (congrArg (val_main_v19 (F := Ideal) x0 w1 w2 w3) (idx3_ext (lidx_main_v20 (ix3 B n e) k) (ix3 B n k) rfl rfl rfl)).trans (congrFun (congrFun hM n) k)

/-- The second branch is the same function of its own weights. -/
theorem second_branch (x0 : A3) (w4 w5 w6 w9 : A2) (b10 : A1) :
    val_main_v47 (F := Ideal) x0 w4 w5 w6 w9 b10 = val_main_v23 (F := Ideal) x0 w4 w5 w6 w9 b10 := rfl

/-- THE REFERENCE'S RESULT at `(B, n, e)`: the gated two-branch attention of sequence `B`. -/
theorem result_at (x0 : A3) (x1 x2 x3 x4 x5 x6 x7 : A2) (x8 : A1) (x9 : A2) (x10 : A1) (B : Fin 256) (n : Fin 512) (e : Fin 64) :
    val_main_v55 (F := Ideal) x0 x1 x2 x3 x4 x5 x6 x7 x8 x9 x10 (ix3 B n e)
      = gated x0 x1 x2 x3 x4 x5 x6 x7 x8 x9 x10 (ix3 B n e) := by
  rw [val_main_v55_apply, val_main_v54_apply, val_main_v53_apply, val_main_v52_apply, val_main_v51_apply,
    val_main_v50_apply, val_main_v49_apply, val_main_v48_apply, second_branch, branch_at, branch_at,
    attnPost_eq_attnPre Consts.eighth_nonneg Consts.eighth_ne_top, attnPost_eq_attnPre Consts.eighth_nonneg Consts.eighth_ne_top]
  have o1 : val_main_cst_10 (F := Ideal) (idx_main_v53 (ix3 B n e)) = 1 := Consts.ofBits_one
  have o2 : val_main_cst_9 (F := Ideal) (idx_main_v51 (ix3 B n e)) = 1 := Consts.ofBits_one
  rw [o1, o2]
  rfl

/-- The reference's result array is the gated two-branch attention of the argument arrays. -/
theorem result_eq (x0 : A3) (x1 x2 x3 x4 x5 x6 x7 : A2) (x8 : A1) (x9 : A2) (x10 : A1) :
    val_main_v55 (F := Ideal) x0 x1 x2 x3 x4 x5 x6 x7 x8 x9 x10 = gated x0 x1 x2 x3 x4 x5 x6 x7 x8 x9 x10 := by
  funext i
  obtain ⟨B, n, e, rfl⟩ : ∃ (B : Fin 256) (n : Fin 512) (e : Fin 64), i = ix3 B n e := ⟨i 0, i 1, i 2, eq_ix3 i⟩
  exact result_at x0 x1 x2 x3 x4 x5 x6 x7 x8 x9 x10 B n e

end Cert.ReferenceIdeal.RefValue

end
-- ==== Proof.lean ====
/-
  The kernel and its reference compute the same gated two-branch self-attention.

  Over a stack `x` of 256 sequences (512 positions × 64 channels) each program forms, for either branch (temporal,
  spatial) with its own square weights, the queries, keys and values `X·Wq`, `X·Wk`, `X·Wv` of every sequence `X`,
  the scores scaled by `1/√64`, their row-wise softmax, the weighted mix of the values and a dense layer `·Wd + bd`,
  and returns `x · σ(temporal + spatial)`, `σ` the logistic function.

  Read on the extended reals the programs differ in three ways, none of which changes a value:
  • the kernel works on blocks of eight sequences, one grid point per block, and on each block's sequences flattened
    to a `4096 × 64` matrix for the weight products; an entry of the result depends on its own sequence alone, so the
    32 blocks assemble into the reference's whole-array computation;
  • the kernel multiplies the QUERIES by the literal `0.125`, the reference multiplies the finished score PRODUCT by
    `1 / sqrt 64`. The square root of 64 is exactly 8, so the scales are one number, nonnegative and finite, and a product
    by such a number distributes over a sum of extended reals, whatever infinities it holds — the precondition is never
    opened;
  • the kernel's logistic operation is, on the extended reals, the reference's `1 / (1 + exp (−z))`.
  The three frames are the generated ones (the reference's is its generated run with the result dropped), and the
  idealization rewrote nothing, so `preserves` is trivial.
-/
import proofs.«142567_j73504070303828_1_alg».proof.Defs
import proofs.«142567_j73504070303828_1_alg».proof.Proof.Gen.Kernel
import proofs.«142567_j73504070303828_1_alg».proof.Proof.Gen.Kernel.Skeleton
import proofs.«142567_j73504070303828_1_alg».proof.Proof.Gen.Kernel.Launch
import proofs.«142567_j73504070303828_1_alg».proof.Proof.Gen.Kernel.Points
import proofs.«142567_j73504070303828_1_alg».proof.Proof.Gen.Kernel.Frame
import proofs.«142567_j73504070303828_1_alg».proof.Proof.Gen.KernelIdeal
import proofs.«142567_j73504070303828_1_alg».proof.Proof.Gen.KernelIdeal.Skeleton
import proofs.«142567_j73504070303828_1_alg».proof.Proof.Gen.KernelIdeal.Launch
import proofs.«142567_j73504070303828_1_alg».proof.Proof.Gen.KernelIdeal.Points
import proofs.«142567_j73504070303828_1_alg».proof.Proof.Gen.KernelIdeal.Frame
import proofs.«142567_j73504070303828_1_alg».proof.Proof.Gen.ReferenceIdeal
import proofs.«142567_j73504070303828_1_alg».proof.Proof.Gen.Pre_finite_inputs
import proofs.«142567_j73504070303828_1_alg».proof.Proof.Gen.KernelIdeal.Value
import proofs.«142567_j73504070303828_1_alg».proof.Proof.Gen.ReferenceIdeal.Run
import proofs.«142567_j73504070303828_1_alg».proof.Proof.Gen.ReferenceIdeal.Read
import proofs.«142567_j73504070303828_1_alg».proof.Proof.KernelValue
import proofs.«142567_j73504070303828_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the gated two-branch attention
    of the arguments: the kernel block by block, the reference operation by operation. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefValue.result_eq]
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
